-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x256 : Shape := ⟨2, ![65536, 256]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S256 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256x256 .f32) (main_arg8 : FVec F S256 .f32) (main_arg9 : FVec F S1x256 .f32) (main_arg10 : FVec F S1 .f32) (main_arg11 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1x256 .f32 := Host.absf main_arg9
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S1x256 .f32) (main_arg10 : FVec F S1 .f32) (main_arg11 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x128 .f32) (main_arg1 : FVec F S65536x128 .f32) (main_arg2 : FVec F S65536x256 .f32) (main_arg3 : FVec F S256x128 .f32) (main_arg4 : FVec F S256 .f32) (main_arg5 : FVec F S256x256 .f32) (main_arg6 : FVec F S256 .f32) (main_arg7 : FVec F S256x256 .f32) (main_arg8 : FVec F S256 .f32) (main_arg9 : FVec F S1x256 .f32) (main_arg10 : FVec F S1 .f32) (main_arg11 : FVec F S256 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_v13 main_v16
-- ==== Kernel.lean ====
abbrev S65536x128 : Shape := ⟨2, ![65536, 128]⟩
abbrev S65536x256 : Shape := ⟨2, ![65536, 256]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S128x256 : Shape := ⟨2, ![128, 256]⟩
abbrev S1x128 : Shape := ⟨2, ![1, 128]⟩
abbrev S128x1 : Shape := ⟨2, ![128, 1]⟩
abbrev S65536x1 : Shape := ⟨2, ![65536, 1]⟩
abbrev S2048x128 : Shape := ⟨2, ![2048, 128]⟩
abbrev S2048x256 : Shape := ⟨2, ![2048, 256]⟩
abbrev S2048x1 : Shape := ⟨2, ![2048, 1]⟩
abbrev S1x1 : Shape := ⟨2, ![1, 1]⟩

abbrev nBuf : Space → Nat
  | .hbm => 21
  | .vmem => 20
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x256, .f32⟩
  | .hbm, ⟨3, _⟩ => ⟨S256x128, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S256, .f32⟩
  | .hbm, ⟨12, _⟩ => ⟨S128x256, .f32⟩
  | .hbm, ⟨13, _⟩ => ⟨S256x256, .f32⟩
  | .hbm, ⟨14, _⟩ => ⟨S256x256, .f32⟩
  | .hbm, ⟨15, _⟩ => ⟨S1x128, .f32⟩
  | .hbm, ⟨16, _⟩ => ⟨S128x1, .f32⟩
  | .hbm, ⟨17, _⟩ => ⟨S1x128, .f32⟩
  | .hbm, ⟨18, _⟩ => ⟨S128x1, .f32⟩
  | .hbm, ⟨19, _⟩ => ⟨S65536x256, .f32⟩
  | .hbm, ⟨20, _⟩ => ⟨S65536x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x256, .f32⟩
  | .local _ .vmem, ⟨5, _⟩ => ⟨S2048x256, .f32⟩
  | .local _ .vmem, ⟨6, _⟩ => ⟨S128x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S128x1, .f32⟩
  | .local _ .vmem, ⟨13, _⟩ => ⟨S128x1, .f32⟩
  | .local _ .vmem, ⟨14, _⟩ => ⟨S1, .f32⟩
  | .local _ .vmem, ⟨15, _⟩ => ⟨S256, .f32⟩
  | .local _ .vmem, ⟨16, _⟩ => ⟨S2048x256, .f32⟩
  | .local _ .vmem, ⟨17, _⟩ => ⟨S2048x256, .f32⟩
  | .local _ .vmem, ⟨18, _⟩ => ⟨S2048x1, .f32⟩
  | .local _ .vmem, ⟨19, _⟩ => ⟨S2048x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S256x128_S128x256_1_0 : S256x128.Transposes [1, 0] S128x256
  transposes_S256x256_S256x256_1_0 : S256x256.Transposes [1, 0] S256x256
  slices_S1x256_S1x128_0_0 : S1x256.Slices ![0, 0] S1x128
  transposes_S1x128_S128x1_1_0 : S1x128.Transposes [1, 0] S128x1
  slices_S1x256_S1x128_0_128 : S1x256.Slices ![0, 128] S1x128
  inb_S2048x128_S2048x128_0_0 : ∀ a, (![0, 0] : Fin 2 → Nat) a + S2048x128.size a ≤ S2048x128.size a
  h_S2048x128 : 0 < S2048x128.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  broadcasts_S2048x1_S2048x256 : S2048x1.Broadcasts S2048x256
  inb_S2048x1_S2048x1_0_0 : ∀ a, (![0, 0] : Fin 2 → Nat) a + S2048x1.size a ≤ S2048x1.size a
  h_S2048x1 : 0 < S2048x1.numel
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x256.size a ≤ S65536x256.size a
  hwx0_13 : ∀ i : grid0.Coords, EltTy.bits .f32 = 32 ∨ (Rect.block (s := S65536x256) S2048x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x1.size a ≤ S65536x1.size a
  hwx0_14 : ∀ i : grid0.Coords, EltTy.bits .f32 = 32 ∨ (Rect.block (s := S65536x1) S2048x1.size (cc0_transform_14 i) (hinb0_14 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7_0) S2048x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v7_1) S2048x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x256 : Shape := ⟨2, ![65536, 256]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S256x1 : Shape := ⟨2, ![256, 1]⟩
abbrev S65536x1 : Shape := ⟨2, ![65536, 1]⟩
abbrev S1x1 : Shape := ⟨2, ![1, 1]⟩
abbrev S_ : Shape := ⟨0, ![]⟩
abbrev S128x256 : Shape := ⟨2, ![128, 256]⟩

abbrev nBuf : Space → Nat
  | .hbm => 75
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x256, .f32⟩
  | .hbm, ⟨3, _⟩ => ⟨S256x128, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S256, .f32⟩
  | .hbm, ⟨12, _⟩ => ⟨S65536x256, .f32⟩
  | .hbm, ⟨13, _⟩ => ⟨S256x1, .f32⟩
  | .hbm, ⟨14, _⟩ => ⟨S65536x1, .f32⟩
  | .hbm, ⟨15, _⟩ => ⟨S1x1, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S128x256, .f32⟩
  | .hbm, ⟨27, _⟩ => ⟨S65536x256, .f32⟩
  | .hbm, ⟨28, _⟩ => ⟨S1x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S256x256, .f32⟩
  | .hbm, ⟨33, _⟩ => ⟨S65536x256, .f32⟩
  | .hbm, ⟨34, _⟩ => ⟨S1x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S65536x256, .f32⟩
  | .hbm, ⟨41, _⟩ => ⟨S65536x256, .f32⟩
  | .hbm, ⟨42, _⟩ => ⟨S_, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S256x256, .f32⟩
  | .hbm, ⟨47, _⟩ => ⟨S65536x256, .f32⟩
  | .hbm, ⟨48, _⟩ => ⟨S1x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S65536x256, .f32⟩
  | .hbm, ⟨61, _⟩ => ⟨S65536x256, .f32⟩
  | .hbm, ⟨62, _⟩ => ⟨S65536x256, .f32⟩
  | .hbm, ⟨63, _⟩ => ⟨S1x256, .f32⟩
  | .hbm, ⟨64, _⟩ => ⟨S65536x256, .f32⟩
  | .hbm, ⟨65, _⟩ => ⟨S65536x256, .f32⟩
  | .hbm, ⟨66, _⟩ => ⟨S_, .f32⟩
  | .hbm, ⟨67, _⟩ => ⟨S65536x256, .f32⟩
  | .hbm, ⟨68, _⟩ => ⟨S65536x256, .f32⟩
  | .hbm, ⟨69, _⟩ => ⟨S_, .f32⟩
  | .hbm, ⟨70, _⟩ => ⟨S65536x1, .f32⟩
  | .hbm, ⟨71, _⟩ => ⟨S65536x1, .f32⟩
  | .hbm, ⟨72, _⟩ => ⟨S65536x256, .f32⟩
  | .hbm, ⟨73, _⟩ => ⟨S65536x256, .f32⟩
  | .hbm, ⟨74, _⟩ => ⟨S65536x256, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  concatenates_S65536x128_S65536x128_S65536x256_d1 : Shape.Concatenates [S65536x128, S65536x128] S65536x256 1
  transposes_S1x256_S256x1_1_0 : S1x256.Transposes [1, 0] S256x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  transposes_S256x128_S128x256_1_0 : S256x128.Transposes [1, 0] S128x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S256x256_S256x256_1_0 : S256x256.Transposes [1, 0] S256x256
  bcast_S_S65536x256 : S_.BroadcastsInDim S65536x256 (![] : Fin 0 → Fin S65536x256.rank)
  bcast_S_S256 : S_.BroadcastsInDim S256 (![] : Fin 0 → Fin S256.rank)
  bcast_S65536x1_S65536x256_0_1 : S65536x1.BroadcastsInDim S65536x256 (![0, 1] : Fin 2 → Fin S65536x256.rank)
  dot_S65536x256_S256x1_S65536x1_1_0_0_1_n_n_wf : DotDims.WF S65536x256 S256x1 S65536x1 [1] [0] [0] [1] [] []
  dot_S65536x128_S128x256_S65536x256_1_0_0_1_n_n_wf : DotDims.WF S65536x128 S128x256 S65536x256 [1] [0] [0] [1] [] []
  dot_S65536x256_S256x256_S65536x256_1_0_0_1_n_n_wf : DotDims.WF S65536x256 S256x256 S65536x256 [1] [0] [0] [1] [] []

variable [Facts₀]

def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf
def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibRows.lean ====
import Idealize.ShloMosaic.Lib.ValueIdx
import Idealize.ShloMosaic.Lib.Pipeline.Value
import Idealize.ShloMosaic.PureOps.Ideal.Laws

/-!
General facts used by the bridge between the two programs.

* A row gather: `stablehlo.gather` of a table `[N, C]` at start indices `[R, 1]` (offset axis 1, collapsed axis 0)
  reads, at result index `(e, q)`, row `clamp (idx[e, 0])` of the table at column `q`. The row depends on `e` and on
  the indices only, so gathering rows commutes with any function applied row by row.
* A finite sum over `Fin (a + b)` splits into the sum over the first `a` and the sum over the last `b` indices;
  stated for the three extents the concatenated operands of this network have.
-/

noncomputable section

namespace Idealize.ShloMosaic.RowGather

open Idealize.ShloMosaic Idealize.ShloMosaic.ValueIdx

variable {α : Type}

/-- The dimension numbers of a row gather: table `[N, C]`, start indices `[R, 1]`, result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a result row `e` reads: its start index, read signed and clamped into `[0, N - 1]`. -/
def row {N R w : Nat} (hN : 0 < N) (idx : IVec ⟨2, ![R, 1]⟩ w) (e : Fin R) : Fin N :=
  ⟨min (idx (ix2 e (0 : Fin 1))).toInt.toNat (N - 1), by omega⟩

/-- THE ROW GATHER READ AT `(e, q)`: the table at row `row idx e`, column `q`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowDims N R C wf) x idx (ix2 e q) = x (ix2 (row hN idx e) q) := by
  unfold Host.gather
  congr 1
  funext a
  refine Fin.ext ?_
  match a with
  | ⟨0, _⟩ =>
    show (rowDims N R C wf).start (ix2 e q) idx 0 + (rowDims N R C wf).batchCoord (ix2 e q) 0
      + (rowDims N R C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e q) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e q) idx 1 + (rowDims N R C wf).batchCoord (ix2 e q) 1
      + (rowDims N R C wf).offCoord (ix2 e q) 1 = _
    rw [GatherDims.batchCoord_eq_zero _ _ _ List.not_mem_nil]
    have hst : (rowDims N R C wf).start (ix2 e q) idx 1 = 0 := by
      unfold GatherDims.start
      rw [dif_neg (show ¬ (1 : Fin 2) ∈ (rowDims N R C wf).startIndexMap from
        fun h => absurd (congrArg Fin.val (List.mem_singleton.mp h)) (by simp))]
    rw [hst]
    simp only [Nat.add_zero, Nat.zero_add]
    rfl

/-- Rows gathered from a table that is a row-by-row function `f` of another table are `f` of the gathered rows:
    both read row `row idx e`. -/
theorem gather_rows_of_rows {β : Type} {N R C C' w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C)
    (g : Fin N → Fin C → α) (hx : ∀ n c, x (ix2 n c) = g n c) :
    Host.gather (rowDims N R C wf) x idx (ix2 e q) = g (row hN idx e) q := by
  rw [gather_rows_apply hN wf x idx e q, hx]

end Idealize.ShloMosaic.RowGather

/-! ## Splitting a finite sum at the joints of a concatenation -/

namespace Idealize.ShloMosaic.SumSplit

variable {M : Type*} [AddCommMonoid M]

/-- A sum over `Fin (a + b)` is the sum over the first `a` indices plus the sum over the last `b`. -/
theorem sum_two (a b : Nat) (f : Fin (a + b) → M) :
    ∑ k : Fin (a + b), f k = ∑ k : Fin a, f ⟨k.val, by omega⟩ + ∑ k : Fin b, f ⟨a + k.val, by omega⟩ := by
  rw [Fin.sum_univ_add]
  rfl

/-- A sum over `Fin (a + b + c)` in three stretches. -/
theorem sum_three (a b c : Nat) (f : Fin (a + b + c) → M) :
    ∑ k : Fin (a + b + c), f k
      = ∑ k : Fin a, f ⟨k.val, by omega⟩ + ∑ k : Fin b, f ⟨a + k.val, by omega⟩
        + ∑ k : Fin c, f ⟨a + b + k.val, by omega⟩ := by
  rw [sum_two (a + b) c f, sum_two a b fun k => f ⟨k.val, by omega⟩]

/-- A dense layer over a concatenation of two operands: the two partial products add up to the product with the
    whole weight, on the extended reals (only associativity of the sum is used). -/
theorem dense_two (a b : Nat) (f : Fin a → EReal) (g : Fin b → EReal) (C W : Fin (a + b) → EReal) (β : EReal)
    (hf : ∀ k : Fin a, C ⟨k.val, by omega⟩ = f k) (hg : ∀ k : Fin b, C ⟨a + k.val, by omega⟩ = g k) :
    (∑ k : Fin a, f k * W ⟨k.val, by omega⟩ + ∑ k : Fin b, g k * W ⟨a + k.val, by omega⟩) + β
      = ∑ k : Fin (a + b), C k * W k + β := by
  rw [sum_two a b fun k => C k * W k]
  simp only [hf, hg]

/-- The same over three operands. -/
theorem dense_three (a b c : Nat) (f : Fin a → EReal) (g : Fin b → EReal) (h : Fin c → EReal)
    (C W : Fin (a + b + c) → EReal) (β : EReal)
    (hf : ∀ k : Fin a, C ⟨k.val, by omega⟩ = f k) (hg : ∀ k : Fin b, C ⟨a + k.val, by omega⟩ = g k)
    (hh : ∀ k : Fin c, C ⟨a + b + k.val, by omega⟩ = h k) :
    (∑ k : Fin a, f k * W ⟨k.val, by omega⟩ + ∑ k : Fin b, g k * W ⟨a + k.val, by omega⟩
        + ∑ k : Fin c, h k * W ⟨a + b + k.val, by omega⟩) + β
      = ∑ k : Fin (a + b + c), C k * W k + β := by
  rw [sum_three a b c fun k => C k * W k]
  simp only [hf, hg, hh]

/-- The three message projections, each with its own bias (two of them zero), against one dense layer over the
    concatenation: the biases gather at the end. -/
theorem message_sum (S1 S2 S3 β : EReal) : (S1 + 0) + (S2 + β) + (S3 + 0) = (S1 + S2 + S3) + β := by
  rw [add_zero, add_zero]
  abel

end Idealize.ShloMosaic.SumSplit

end
-- ==== Proof.Spec.lean ====
import Idealize.ShloMosaic.PureOps.Ideal
import Idealize.ShloMosaic.PureOps.Ideal.Laws
import Idealize.ShloMosaic.Lib.ValueIdx
import Idealize.ShloMosaic.Lib.IdealHost
import proofs.«130308_j30528627540772_1_alg».proof.Proof.LibRows

/-!
The liquid recurrent cell as ONE function of its argument arrays, on the extended reals.

For a batch row `p` with input row `x`, previous input row `x'` and hidden row `h`:

* the input part      `a q = tanh (∑ k, x k · W_in q k + b_in q)`,
* the attention gate  `g k = logistic (∑ j, h j · W_att k j + b_att k)`,
* the recurrent part  `r q = tanh (∑ k, (h k · g k) · W_rec q k + b_rec q)`,
* the event weight    `e = logistic ((∑ k<128, x k · w k + ∑ k<128, x' k · w (128 + k)) + β)`,
* the clamped time constant `τ q = min 10 (max 0.1 (tau q))`,
* the new hidden row  `h q + (0.1 · ((-h q + a q) + r q) / τ q) · (1 + e)`.

The weights enter by rows (`W q k`, the transposed product), every sum is over a literal `Fin`. The three
float literals `0.1`, `10`, `1` are kept as the extended reals their bit patterns denote; nothing depends on their values
except that the pattern of `1` is the real one, which the logistic function's own definition `1 / (1 + e⁻ᶻ)` needs.

The only law beyond the definitions: a dot product against a concatenated row is the sum of the two partial dot
products (associativity of a finite sum of extended reals; no finiteness is needed).
-/

noncomputable section

namespace Cert.LiquidCell

open Idealize.ShloMosaic Idealize.ShloMosaic.ValueIdx

/-- The float literal `0.1` (the step size, and the lower clamp of the time constant). -/
abbrev tenth : EReal := Ideal.ofBits .f32 0x3DCCCCCD#32
/-- The float literal `10` (the upper clamp of the time constant). -/
abbrev ten : EReal := Ideal.ofBits .f32 0x41200000#32
/-- The float literal `1`. -/
abbrev oneLit : EReal := Ideal.ofBits .f32 0x3F800000#32

/-- A dense layer on one row: `∑ k, x k · W q k + b q`. -/
def lin {K H : ℕ} (xr : Fin K → EReal) (W : Fin H → Fin K → EReal) (b : Fin H → EReal) (q : Fin H) : EReal :=
  (∑ k : Fin K, xr k * W q k) + b q

/-- The input part of the update. -/
def inputPart {K H : ℕ} (xr : Fin K → EReal) (W : Fin H → Fin K → EReal) (b : Fin H → EReal) (q : Fin H) : EReal :=
  Ideal.tanh (lin xr W b q)

/-- The attention gate on the hidden row. -/
def gate {H : ℕ} (hr : Fin H → EReal) (Wa : Fin H → Fin H → EReal) (ba : Fin H → EReal) (k : Fin H) : EReal :=
  Ideal.logistic (lin hr Wa ba k)

/-- The recurrent part: a dense layer on the gated hidden row. -/
def recurrentPart {H : ℕ} (hr : Fin H → EReal) (Wa : Fin H → Fin H → EReal) (ba : Fin H → EReal)
    (Wr : Fin H → Fin H → EReal) (br : Fin H → EReal) (q : Fin H) : EReal :=
  Ideal.tanh (lin (fun k => hr k * gate hr Wa ba k) Wr br q)

/-- The time constant clamped into `[0.1, 10]`. -/
def tauClamped (tau : EReal) : EReal := min ten (max tenth tau)

/-- The event weight of one row: the input row against the first half of the event weights, the previous input row
    against the second half. -/
def rowEvent (xr pr ew1 ew2 : Fin 128 → EReal) (eb : EReal) : EReal :=
  Ideal.logistic (((∑ k : Fin 128, xr k * ew1 k) + ∑ k : Fin 128, pr k * ew2 k) + eb)

/-- The first half of a row of 256 entries. -/
abbrev firstHalf (ew : Fin 256 → EReal) : Fin 128 → EReal := fun k => ew ⟨k.val, by omega⟩
/-- The second half of a row of 256 entries. -/
abbrev secondHalf (ew : Fin 256 → EReal) : Fin 128 → EReal := fun k => ew ⟨128 + k.val, by omega⟩

/-- One explicit Euler step of the hidden state. -/
def step (h a r tau e : EReal) : EReal :=
  h + (tenth * Ideal.div ((-h + a) + r) (tauClamped tau)) * (oneLit + e)

/-- The new hidden entry `q` of one row. -/
def rowHidden (xr pr : Fin 128 → EReal) (hr : Fin 256 → EReal) (Win : Fin 256 → Fin 128 → EReal) (bin : Fin 256 → EReal)
    (Wrec : Fin 256 → Fin 256 → EReal) (brec : Fin 256 → EReal) (Watt : Fin 256 → Fin 256 → EReal) (batt : Fin 256 → EReal)
    (ew1 ew2 : Fin 128 → EReal) (eb : EReal) (tau : Fin 256 → EReal) (q : Fin 256) : EReal :=
  step (hr q) (inputPart xr Win bin q) (recurrentPart hr Watt batt Wrec brec q) (tau q) (rowEvent xr pr ew1 ew2 eb)

/-- The event weight against the CONCATENATED row: one dot product over all 256 entries. -/
theorem rowEvent_of_concat (xr pr : Fin 128 → EReal) (C ew : Fin 256 → EReal) (eb : EReal)
    (hx : ∀ k : Fin 128, C ⟨k.val, by omega⟩ = xr k) (hp : ∀ k : Fin 128, C ⟨128 + k.val, by omega⟩ = pr k) :
    Ideal.logistic ((∑ k : Fin 256, C k * ew k) + eb) = rowEvent xr pr (firstHalf ew) (secondHalf ew) eb := by
  unfold rowEvent
  exact congrArg Ideal.logistic (SumSplit.dense_two 128 128 xr pr C ew eb hx hp).symm

/-- The same row function of equal rows and weights. -/
theorem rowHidden_congr {xr xr' pr pr' : Fin 128 → EReal} {hr hr' : Fin 256 → EReal} {Win Win' : Fin 256 → Fin 128 → EReal}
    {bin bin' : Fin 256 → EReal} {Wrec Wrec' : Fin 256 → Fin 256 → EReal} {brec brec' : Fin 256 → EReal}
    {Watt Watt' : Fin 256 → Fin 256 → EReal} {batt batt' : Fin 256 → EReal} {ew1 ew1' ew2 ew2' : Fin 128 → EReal} {eb eb' : EReal}
    {tau tau' : Fin 256 → EReal} (q : Fin 256)
    (h0 : xr = xr') (h1 : pr = pr') (h2 : hr = hr') (h3 : Win = Win') (h4 : bin = bin') (h5 : Wrec = Wrec') (h6 : brec = brec')
    (h7 : Watt = Watt') (h8 : batt = batt') (h9 : ew1 = ew1') (h10 : ew2 = ew2') (h11 : eb = eb') (h12 : tau = tau') :
    rowHidden xr pr hr Win bin Wrec brec Watt batt ew1 ew2 eb tau q
      = rowHidden xr' pr' hr' Win' bin' Wrec' brec' Watt' batt' ew1' ew2' eb' tau' q := by
  subst h0 h1 h2 h3 h4 h5 h6 h7 h8 h9 h10 h11 h12; rfl

/-- The same event weight of equal rows and weights. -/
theorem rowEvent_congr {xr xr' pr pr' ew1 ew1' ew2 ew2' : Fin 128 → EReal} {eb eb' : EReal}
    (h0 : xr = xr') (h1 : pr = pr') (h9 : ew1 = ew1') (h10 : ew2 = ew2') (h11 : eb = eb') :
    rowEvent xr pr ew1 ew2 eb = rowEvent xr' pr' ew1' ew2' eb' := by
  subst h0 h1 h9 h10 h11; rfl

/-- The logistic function as jax's expansion writes it with the literal one. -/
theorem logistic_expanded (z : EReal) : Ideal.div oneLit (oneLit + Ideal.exp (-z)) = Ideal.logistic z := by
  show Ideal.div (Ideal.ofBits .f32 0x3F800000#32) (Ideal.ofBits .f32 0x3F800000#32 + Ideal.exp (-z)) = _
  rw [Ideal.ofBits_one_f32]
  rfl

/-- Zero (as the literal pattern) minus `h` is `-h`. -/
theorem zeroLit_sub (h : EReal) : (Ideal.ofBits .f32 0x00000000#32 : EReal) - h = -h := by
  rw [Ideal.ofBits_zero_f32, sub_eq_add_neg, zero_add]

/-! ## The two result arrays, from the argument arrays -/

/-- A matrix of extended reals. -/
abbrev Mat (a b : ℕ) : Type := (⟨2, ![a, b]⟩ : Shape).Idx → EReal
/-- A vector of extended reals. -/
abbrev Vc (a : ℕ) : Type := (⟨1, ![a]⟩ : Shape).Idx → EReal

/-- The event weight of batch row `p`. -/
def eventAt {B : ℕ} (x prev : Mat B 128) (evw : Mat 1 256) (evb : Vc 1) (p : Fin B) : EReal :=
  rowEvent (fun k => x (ix2 p k)) (fun k => prev (ix2 p k)) (firstHalf fun k => evw (ix2 (0 : Fin 1) k))
    (secondHalf fun k => evw (ix2 (0 : Fin 1) k)) (evb (ix1 (0 : Fin 1)))

/-- The new hidden state at `(p, q)`. -/
def hiddenAt {B : ℕ} (x prev : Mat B 128) (h : Mat B 256) (Win : Mat 256 128) (bin : Vc 256) (Wrec : Mat 256 256)
    (brec : Vc 256) (Watt : Mat 256 256) (batt : Vc 256) (evw : Mat 1 256) (evb : Vc 1) (tau : Vc 256)
    (p : Fin B) (q : Fin 256) : EReal :=
  rowHidden (fun k => x (ix2 p k)) (fun k => prev (ix2 p k)) (fun k => h (ix2 p k))
    (fun q k => Win (ix2 q k)) (fun q => bin (ix1 q)) (fun q k => Wrec (ix2 q k)) (fun q => brec (ix1 q))
    (fun q k => Watt (ix2 q k)) (fun q => batt (ix1 q))
    (firstHalf fun k => evw (ix2 (0 : Fin 1) k)) (secondHalf fun k => evw (ix2 (0 : Fin 1) k)) (evb (ix1 (0 : Fin 1)))
    (fun q => tau (ix1 q)) q

/-- The new hidden state as a whole array. -/
def hiddenArr {B : ℕ} (x prev : Mat B 128) (h : Mat B 256) (Win : Mat 256 128) (bin : Vc 256) (Wrec : Mat 256 256)
    (brec : Vc 256) (Watt : Mat 256 256) (batt : Vc 256) (evw : Mat 1 256) (evb : Vc 1) (tau : Vc 256) : Mat B 256 :=
  fun i => hiddenAt x prev h Win bin Wrec brec Watt batt evw evb tau (i 0) (i 1)

/-- The event weights as a one-column array. -/
def eventArr {B : ℕ} (x prev : Mat B 128) (evw : Mat 1 256) (evb : Vc 1) : Mat B 1 :=
  fun i => eventAt x prev evw evb (i 0)

end Cert.LiquidCell

end
-- ==== Proof.KernelBody.lean ====
import proofs.«130308_j30528627540772_1_alg».proof.Proof.Gen.KernelIdeal.Skeleton
import proofs.«130308_j30528627540772_1_alg».proof.Proof.LibPlainDot
import proofs.«130308_j30528627540772_1_alg».proof.Proof.LibColumn
import proofs.«130308_j30528627540772_1_alg».proof.Proof.Spec
import Idealize.ShloMosaic.Lib.ValueLayout
import Idealize.ShloMosaic.Lib.Pipeline.Value

/-!
The kernel's arithmetic on ONE batch tile, read at an index on the extended reals.

A tile holds 2048 batch rows. The body computes, from the tile's rows of `x`, the previous input and the hidden state and
from the resident (already transposed) weights, three matrix products into zero accumulators, each followed by a bias
row and a pointwise nonlinearity, and two one-column products for the event weight. Rounding to bf16 before a product is
the identity here, a product into a zero accumulator is the plain sum over the contracted axis, and a bias vector
`[b]` viewed as `[1, b]` and repeated over the rows reads the vector at the column. So each intermediate, at row `r`
and column `q`, is the corresponding function of `Cert.LiquidCell` of row `r` of the tile, the weights entering
through their transposes (`Wᵀ (k, q)` where the specification writes `W q k`).
-/

noncomputable section

namespace Cert.KernelIdeal.Body

open Cert.KernelIdeal Cert.KernelIdeal.Gen Idealize.ShloMosaic Idealize.ShloMosaic.ValueIdx Cert.LiquidCell

/-- A vector `[b]` viewed as one row `[1, b]` and repeated over `a` rows reads, at `(p, q)`, the vector at `q`. -/
theorem biasRow_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- A matrix product of the tile into the zero accumulator, the right factor first cast to its own shape: at `(r, q)`
    the sum over the contracted axis. -/
theorem product_apply {M K N : ℕ} (d : DotDims ⟨2, ![M, K]⟩ ⟨2, ![K, N]⟩ ⟨2, ![M, N]⟩) (hd : d = DotDims.plain M K N)
    (x : (⟨2, ![M, K]⟩ : Shape).Idx → EReal) (W : (⟨2, ![K, N]⟩ : Shape).Idx → EReal)
    (hc : (⟨2, ![K, N]⟩ : Shape).ShapeCasts ⟨2, ![K, N]⟩) (r : Fin M) (q : Fin N) :
    FloatOps.matmul (F := Ideal) (φ₁ := .bf16) (φ₂ := .bf16) d none x (shapeCast ⟨2, ![K, N]⟩ W hc)
        (constant ⟨2, ![M, N]⟩ .f32 0x00000000#32) (ix2 r q)
      = ∑ k : Fin K, x (ix2 r k) * W (ix2 k q) := by
  subst hd
  rw [shapeCast_self]
  exact PlainDot.matmul_zero_apply M K N none x W r q

/-- The input part on the tile: `tanh (x · W_inᵀ + b_in)` at `(r, q)`. -/
theorem inputPart_apply (x0 : Vec Ideal S2048x128 .f32) (w : Vec Ideal S128x256 .f32) (b : Vec Ideal S256 .f32)
    (r : Fin 2048) (q : Fin 256) :
    k0_pay7 (F := Ideal) x0 w b (ix2 r q)
      = inputPart (fun k => x0 (ix2 r k)) (fun q k => w (ix2 k q)) (fun q => b (ix1 q)) q := by
  unfold k0_pay7 k0_pay3 inputPart lin
  refine congrArg Ideal.tanh ?_
  refine congrArg₂ (· + ·) ?_ ?_
  · exact product_apply dot_S2048x128_S128x256_S2048x256_1_0_0_1_n_n rfl x0 w _ r q
  · exact biasRow_apply b _ _ r q

/-- The gated hidden tile times `W_recᵀ` (before its bias): at `(r, q)` the sum over `k` of the gated hidden entry
    `h k · logistic (h · W_attᵀ + b_att) k` times `W_recᵀ (k, q)`. -/
theorem gatedProduct_apply (h : Vec Ideal S2048x256 .f32) (wr wa : Vec Ideal S256x256 .f32) (ba : Vec Ideal S256 .f32)
    (r : Fin 2048) (q : Fin 256) :
    k0_pay8 (F := Ideal) h wr wa ba (ix2 r q)
      = ∑ k : Fin 256, (h (ix2 r k) * gate (fun j => h (ix2 r j)) (fun k j => wa (ix2 j k)) (fun k => ba (ix1 k)) k)
          * wr (ix2 k q) := by
  unfold k0_pay8
  refine (product_apply dot_S2048x256_S256x256_S2048x256_1_0_0_1_n_n rfl _ wr _ r q).trans ?_
  refine Finset.sum_congr rfl fun k _ => ?_
  refine congrArg (· * wr (ix2 k q)) ?_
  refine congrArg (h (ix2 r k) * ·) ?_
  unfold gate lin
  refine congrArg Ideal.logistic ?_
  refine congrArg₂ (· + ·) ?_ ?_
  · exact product_apply dot_S2048x256_S256x256_S2048x256_1_0_0_1_n_n rfl h wa _ r k
  · exact biasRow_apply ba _ _ r k

/-- The event weight on the tile, a one-column matrix: at row `r` the logistic function of the two partial dot
    products plus the bias. -/
theorem event_apply (v3 v4 : FVec Ideal S2048x128 .bf16) (v15 v18 : Vec Ideal S128x1 .f32) (v56 : Vec Ideal S1 .f32)
    (r : Fin 2048) :
    k0_pay1 (F := Ideal) v3 v4 (k0_pay5 v15) (k0_pay6 v18) v56 (ix2 r (0 : Fin 1))
      = Ideal.logistic (((∑ k : Fin 128, v3 (ix2 r k) * v15 (ix2 k (0 : Fin 1)))
          + ∑ k : Fin 128, v4 (ix2 r k) * v18 (ix2 k (0 : Fin 1))) + v56 (ix1 (0 : Fin 1))) := by
  unfold k0_pay1 k0_pay5 k0_pay6
  refine congrArg Ideal.logistic ?_
  refine congrArg₂ (· + ·) (congrArg₂ (· + ·) ?_ ?_) ?_
  · exact product_apply dot_S2048x128_S128x1_S2048x1_1_0_0_1_n_n rfl v3 v15 _ r 0
  · exact product_apply dot_S2048x128_S128x1_S2048x1_1_0_0_1_n_n rfl v4 v18 _ r 0
  · exact biasRow_apply v56 _ _ r 0

end Cert.KernelIdeal.Body

end
-- ==== Proof.KernelTile.lean ====
import proofs.«130308_j30528627540772_1_alg».proof.Proof.Gen.KernelIdeal.Frame
import proofs.«130308_j30528627540772_1_alg».proof.Proof.KernelBody

/-!
What one grid point leaves in its two output tiles, as functions of the tile's operands.

The body stores each output once, through the whole tile, and loads each operand whole: so the tile left behind is
the stored value itself. Read at row `r` and column `q`, the hidden tile is one Euler step
`h + (0.1 · ((-h + a) + ρ) / τ) · (1 + e)` of the hidden entry, with `a` the input part, `ρ` the recurrent part, `τ` the
clamped time constant and `e` the row's event weight; the event tile is `e` in its one column. Zero minus `h` is `-h`.
-/

noncomputable section

namespace Cert.KernelIdeal.Tile

open Cert.KernelIdeal Cert.KernelIdeal.Gen Idealize.ShloMosaic Idealize.ShloMosaic.ValueIdx Cert.LiquidCell

theorem zeros2 : (![0, 0] : Fin 2 → Nat) = fun _ => 0 := funext fun a => by fin_cases a <;> rfl
theorem zeros1 : (![0] : Fin 1 → Nat) = fun _ => 0 := funext fun a => by fin_cases a; rfl

/-- The event weight of row `r` of a tile, from the tile's rows of the input and the previous input and the two
    halves of the event weights as columns. -/
def tileEvent (X0 X1 : Vec Ideal S2048x128 .f32) (X9 X10 : Vec Ideal S128x1 .f32) (X11 : Vec Ideal S1 .f32)
    (r : Fin 2048) : EReal :=
  rowEvent (fun k => X0 (ix2 r k)) (fun k => X1 (ix2 r k)) (fun k => X9 (ix2 k (0 : Fin 1)))
    (fun k => X10 (ix2 k (0 : Fin 1))) (X11 (ix1 (0 : Fin 1)))

/-- The hidden tile after the body, at `(r, q)`. -/
def tileHidden (X0 X1 : Vec Ideal S2048x128 .f32) (X2 : Vec Ideal S2048x256 .f32) (X3 : Vec Ideal S128x256 .f32) (X4 : Vec Ideal S256 .f32) (X5 : Vec Ideal S256x256 .f32) (X6 : Vec Ideal S256 .f32) (X7 : Vec Ideal S256x256 .f32) (X8 : Vec Ideal S256 .f32) (X9 X10 : Vec Ideal S128x1 .f32) (X11 : Vec Ideal S1 .f32) (X12 : Vec Ideal S256 .f32)
    (r : Fin 2048) (q : Fin 256) : EReal :=
  rowHidden (fun k => X0 (ix2 r k)) (fun k => X1 (ix2 r k)) (fun k => X2 (ix2 r k))
    (fun q k => X3 (ix2 k q)) (fun q => X4 (ix1 q)) (fun q k => X5 (ix2 k q)) (fun q => X6 (ix1 q))
    (fun q k => X7 (ix2 k q)) (fun q => X8 (ix1 q))
    (fun k => X9 (ix2 k (0 : Fin 1))) (fun k => X10 (ix2 k (0 : Fin 1))) (X11 (ix1 (0 : Fin 1)))
    (fun q => X12 (ix1 q)) q

/-- The event tile after the body is the event weight of each row. -/
theorem event_tile (X0 X1 : Vec Ideal S2048x128 .f32) (X2 : Vec Ideal S2048x256 .f32) (X3 : Vec Ideal S128x256 .f32) (X4 : Vec Ideal S256 .f32) (X5 : Vec Ideal S256x256 .f32) (X6 : Vec Ideal S256 .f32) (X7 : Vec Ideal S256x256 .f32) (X8 : Vec Ideal S256 .f32) (X9 X10 : Vec Ideal S128x1 .f32) (X11 : Vec Ideal S1 .f32) (X12 : Vec Ideal S256 .f32)
    (r : Fin 2048) :
    out0_14 (F := Ideal) X0 X1 X2 X3 X4 X5 X6 X7 X8 X9 X10 X11 X12 (ix2 r (0 : Fin 1)) = tileEvent X0 X1 X9 X10 X11 r := by
  unfold out0_14
  rw [View.canon_unit_zero zeros2]
  simp only [View.ld_unit_zero (S := S2048x128) zeros2, View.ld_unit_zero (S := S128x1) zeros2,
    View.ld_unit_zero (S := S1) zeros1]
  exact Body.event_apply (k0_pay3 X0) (k0_pay4 X1) X9 X10 X11 r

/-- The hidden tile after the body is the Euler step of each entry. -/
theorem hidden_tile (X0 X1 : Vec Ideal S2048x128 .f32) (X2 : Vec Ideal S2048x256 .f32) (X3 : Vec Ideal S128x256 .f32) (X4 : Vec Ideal S256 .f32) (X5 : Vec Ideal S256x256 .f32) (X6 : Vec Ideal S256 .f32) (X7 : Vec Ideal S256x256 .f32) (X8 : Vec Ideal S256 .f32) (X9 X10 : Vec Ideal S128x1 .f32) (X11 : Vec Ideal S1 .f32) (X12 : Vec Ideal S256 .f32)
    (r : Fin 2048) (q : Fin 256) :
    out0_13 (F := Ideal) X0 X1 X2 X3 X4 X5 X6 X7 X8 X9 X10 X11 X12 (ix2 r q)
      = tileHidden X0 X1 X2 X3 X4 X5 X6 X7 X8 X9 X10 X11 X12 r q := by
  unfold out0_13
  rw [View.canon_unit_zero zeros2]
  simp only [View.ld_unit_zero (S := S2048x128) zeros2, View.ld_unit_zero (S := S2048x256) zeros2,
    View.ld_unit_zero (S := S128x256) zeros2, View.ld_unit_zero (S := S256x256) zeros2,
    View.ld_unit_zero (S := S128x1) zeros2, View.ld_unit_zero (S := S256) zeros1, View.ld_unit_zero (S := S1) zeros1]
  unfold k0_pay2 tileHidden rowHidden step
  refine congrArg (X2 (ix2 r q) + ·) ?_
  refine congrArg₂ (· * ·) ?_ ?_
  · refine congrArg (tenth * ·) ?_
    refine congrArg₂ Ideal.div ?_ ?_
    · refine congrArg₂ (· + ·) (congrArg₂ (· + ·) ?_ ?_) ?_
      · exact zeroLit_sub (X2 (ix2 r q))
      · exact Body.inputPart_apply X0 X3 X4 r q
      · unfold recurrentPart lin
        refine congrArg Ideal.tanh ?_
        refine congrArg₂ (· + ·) ?_ ?_
        · exact Body.gatedProduct_apply X2 X5 X7 X8 r q
        · exact Body.biasRow_apply X6 _ _ r q
    · exact Body.biasRow_apply _ _ _ r q
  · refine (broadcastTo_a1_ab_apply _ _ r q).trans ?_
    refine congrArg (oneLit + ·) ?_
    exact Body.event_apply (k0_pay3 X0) (k0_pay4 X1) X9 X10 X11 r

end Cert.KernelIdeal.Tile

end
-- ==== Proof.KernelValue.lean ====
import proofs.«130308_j30528627540772_1_alg».proof.Proof.ValuePatched
import proofs.«130308_j30528627540772_1_alg».proof.Proof.KernelTile

/-!
The kernel's two result arrays after the run, as the specification of the argument arrays.

The grid has 32 points; point `t` works on batch rows `2048·t … 2048·t + 2047`: its tiles of `x`, the previous input,
the hidden state and of both results are block `t` along the batch axis, while every weight is resident (its one
block is the whole array). The resident weight matrices were transposed by the host before the launch, and the event
weights' two halves cut out and transposed into columns, so a tile operand read at an index is an argument array read
at the transposed or shifted index. With this, what point `t` writes back is block `t` of the specification's array;
the 32 blocks cover the batch axis, so the arrays after the run are the specification's.
-/

noncomputable section

namespace Cert.KernelIdeal.Arr

open Cert.KernelIdeal Cert.KernelIdeal.Gen Idealize.ShloMosaic Idealize.ShloMosaic.TcCoe Idealize.SL.Sem
  Idealize.ShloMosaic.ValueIdx Cert.LiquidCell
open Idealize.ShloMosaic.Pipeline (Dat)

variable (m : (ℓ : Loc nD τ sig) → Buf (Elt Ideal) ℓ) (ρ : Dev nD → PrngReg)

/-! ## The block index maps, decided over the 32 grid points -/

/-- The streamed windows all take block `t`'s rows (their block index along the batch axis is the hidden output's) and
    block 0 along the other axis; the resident windows always take block 0; there are 32 row blocks. -/
theorem pts : ∀ t : Fin cfg0.N,
    (win0_0.index t (0 : Fin 2) = win0_13.index t (0 : Fin 2) ∧ win0_0.index t (1 : Fin 2) = 0
      ∧ win0_1.index t (0 : Fin 2) = win0_13.index t (0 : Fin 2) ∧ win0_1.index t (1 : Fin 2) = 0
      ∧ win0_2.index t (0 : Fin 2) = win0_13.index t (0 : Fin 2) ∧ win0_2.index t (1 : Fin 2) = 0
      ∧ win0_14.index t (0 : Fin 2) = win0_13.index t (0 : Fin 2) ∧ win0_14.index t (1 : Fin 2) = 0
      ∧ win0_13.index t (1 : Fin 2) = 0 ∧ win0_13.index t (0 : Fin 2) ≤ 31)
    ∧ (win0_3.index t (0 : Fin 2) = 0 ∧ win0_3.index t (1 : Fin 2) = 0 ∧ win0_4.index t (0 : Fin 1) = 0
      ∧ win0_5.index t (0 : Fin 2) = 0 ∧ win0_5.index t (1 : Fin 2) = 0 ∧ win0_6.index t (0 : Fin 1) = 0
      ∧ win0_7.index t (0 : Fin 2) = 0 ∧ win0_7.index t (1 : Fin 2) = 0 ∧ win0_8.index t (0 : Fin 1) = 0
      ∧ win0_9.index t (0 : Fin 2) = 0 ∧ win0_9.index t (1 : Fin 2) = 0
      ∧ win0_10.index t (0 : Fin 2) = 0 ∧ win0_10.index t (1 : Fin 2) = 0
      ∧ win0_11.index t (0 : Fin 1) = 0 ∧ win0_12.index t (0 : Fin 1) = 0) :=
  (by decide +kernel : ∀ t : Fin grid0.N, _)

/-- Every row block is some point's. -/
theorem pts_onto : ∀ b : Fin 32, ∃ t : Fin cfg0.N, win0_13.index t (0 : Fin 2) = b.val ∧ win0_14.index t (0 : Fin 2) = b.val :=
  (by decide +kernel : ∀ b : Fin 32, ∃ t : Fin grid0.N, win0_13.index t (0 : Fin 2) = b.val ∧ win0_14.index t (0 : Fin 2) = b.val)

/-! ## The arrays the host wrote before the launch -/

theorem V_v0 (c : Dev nD) : (V m c main_v0 : S128x256.Idx → EReal)
    = transpose S128x256 [1, 0] (m ((c : Thread nD τ).loc main_arg3)) transposes_S256x128_S128x256_1_0 := by
  dsimp only [Gen.V, Gen.hostOps0]; after_results

theorem V_v1 (c : Dev nD) : (V m c main_v1 : S256x256.Idx → EReal)
    = transpose S256x256 [1, 0] (m ((c : Thread nD τ).loc main_arg5)) transposes_S256x256_S256x256_1_0 := by
  dsimp only [Gen.V, Gen.hostOps0]; after_results

theorem V_v2 (c : Dev nD) : (V m c main_v2 : S256x256.Idx → EReal)
    = transpose S256x256 [1, 0] (m ((c : Thread nD τ).loc main_arg7)) transposes_S256x256_S256x256_1_0 := by
  dsimp only [Gen.V, Gen.hostOps0]; after_results

theorem V_v4 (c : Dev nD) : (V m c main_v4 : S128x1.Idx → EReal)
    = transpose S128x1 [1, 0] (extractStridedSlice S1x128 ![0, 0] (m ((c : Thread nD τ).loc main_arg9)) slices_S1x256_S1x128_0_0)
        transposes_S1x128_S128x1_1_0 := by
  dsimp only [Gen.V, Gen.hostOps0]; after_results

theorem V_v6 (c : Dev nD) : (V m c main_v6 : S128x1.Idx → EReal)
    = transpose S128x1 [1, 0] (extractStridedSlice S1x128 ![0, 128] (m ((c : Thread nD τ).loc main_arg9)) slices_S1x256_S1x128_0_128)
        transposes_S1x128_S128x1_1_0 := by
  dsimp only [Gen.V, Gen.hostOps0]; after_results

/-! ## A tile operand read at an index is an argument array read at an index -/

/-- Row `r` of point `t`'s tile of `x` is batch row `2048·(block of t) + r`. -/
theorem tile_x (c : Dev nD) (t : Fin cfg0.N) (r : Fin 2048) (k : Fin 128) (p : Fin 65536)
    (hp : p.val = win0_13.index t (0 : Fin 2) * 2048 + r.val) :
    iblk m c 0 t (ix2 r k) = (m ((c : Thread nD τ).loc main_arg0)) (ix2 p k) := by
  rw [← V_main_arg0 m c]
  show V m c main_arg0 (((cfg0.win 0).blk t).view.emb (ix2 r k)) = V m c main_arg0 (ix2 p k)
  refine congrArg (V m c main_arg0) (funext fun a => Fin.ext ?_)
  obtain ⟨⟨e0, e1, -⟩, -⟩ := pts t
  match a with
  | ⟨0, _⟩ => show win0_0.index t (0 : Fin 2) * 2048 + 1 * r.val = p.val; omega
  | ⟨1, _⟩ => show win0_0.index t (1 : Fin 2) * 128 + 1 * k.val = k.val; omega

/-- The same for the previous input. -/
theorem tile_prev (c : Dev nD) (t : Fin cfg0.N) (r : Fin 2048) (k : Fin 128) (p : Fin 65536)
    (hp : p.val = win0_13.index t (0 : Fin 2) * 2048 + r.val) :
    iblk m c 1 t (ix2 r k) = (m ((c : Thread nD τ).loc main_arg1)) (ix2 p k) := by
  rw [← V_main_arg1 m c]
  show V m c main_arg1 (((cfg0.win 1).blk t).view.emb (ix2 r k)) = V m c main_arg1 (ix2 p k)
  refine congrArg (V m c main_arg1) (funext fun a => Fin.ext ?_)
  obtain ⟨⟨-, -, e0, e1, -⟩, -⟩ := pts t
  match a with
  | ⟨0, _⟩ => show win0_1.index t (0 : Fin 2) * 2048 + 1 * r.val = p.val; omega
  | ⟨1, _⟩ => show win0_1.index t (1 : Fin 2) * 128 + 1 * k.val = k.val; omega

/-- The same for the hidden state. -/
theorem tile_hidden (c : Dev nD) (t : Fin cfg0.N) (r : Fin 2048) (k : Fin 256) (p : Fin 65536)
    (hp : p.val = win0_13.index t (0 : Fin 2) * 2048 + r.val) :
    iblk m c 2 t (ix2 r k) = (m ((c : Thread nD τ).loc main_arg2)) (ix2 p k) := by
  rw [← V_main_arg2 m c]
  show V m c main_arg2 (((cfg0.win 2).blk t).view.emb (ix2 r k)) = V m c main_arg2 (ix2 p k)
  refine congrArg (V m c main_arg2) (funext fun a => Fin.ext ?_)
  obtain ⟨⟨-, -, -, -, e0, e1, -⟩, -⟩ := pts t
  match a with
  | ⟨0, _⟩ => show win0_2.index t (0 : Fin 2) * 2048 + 1 * r.val = p.val; omega
  | ⟨1, _⟩ => show win0_2.index t (1 : Fin 2) * 256 + 1 * k.val = k.val; omega

/-- The resident `W_in` tile is the transposed weight matrix. -/
theorem tile_Win (c : Dev nD) (t : Fin cfg0.N) (k : Fin 128) (q : Fin 256) :
    iblk m c 3 t (ix2 k q) = (m ((c : Thread nD τ).loc main_arg3)) (ix2 q k) := by
  refine Eq.trans ?_ (transpose_ix2_apply (m ((c : Thread nD τ).loc main_arg3)) transposes_S256x128_S128x256_1_0 k q)
  rw [← V_v0 m c]
  show V m c main_v0 (((cfg0.win 3).blk t).view.emb (ix2 k q)) = V m c main_v0 (ix2 k q)
  refine congrArg (V m c main_v0) (funext fun a => Fin.ext ?_)
  obtain ⟨-, e0, e1, -⟩ := pts t
  match a with
  | ⟨0, _⟩ => show win0_3.index t (0 : Fin 2) * 128 + 1 * k.val = k.val; omega
  | ⟨1, _⟩ => show win0_3.index t (1 : Fin 2) * 256 + 1 * q.val = q.val; omega

/-- The resident `W_rec` tile is the transposed weight matrix. -/
theorem tile_Wrec (c : Dev nD) (t : Fin cfg0.N) (k : Fin 256) (q : Fin 256) :
    iblk m c 5 t (ix2 k q) = (m ((c : Thread nD τ).loc main_arg5)) (ix2 q k) := by
  refine Eq.trans ?_ (transpose_ix2_apply (m ((c : Thread nD τ).loc main_arg5)) transposes_S256x256_S256x256_1_0 k q)
  rw [← V_v1 m c]
  show V m c main_v1 (((cfg0.win 5).blk t).view.emb (ix2 k q)) = V m c main_v1 (ix2 k q)
  refine congrArg (V m c main_v1) (funext fun a => Fin.ext ?_)
  obtain ⟨-, -, -, -, e0, e1, -⟩ := pts t
  match a with
  | ⟨0, _⟩ => show win0_5.index t (0 : Fin 2) * 256 + 1 * k.val = k.val; omega
  | ⟨1, _⟩ => show win0_5.index t (1 : Fin 2) * 256 + 1 * q.val = q.val; omega

/-- The resident `W_att` tile is the transposed weight matrix. -/
theorem tile_Watt (c : Dev nD) (t : Fin cfg0.N) (k : Fin 256) (q : Fin 256) :
    iblk m c 7 t (ix2 k q) = (m ((c : Thread nD τ).loc main_arg7)) (ix2 q k) := by
  refine Eq.trans ?_ (transpose_ix2_apply (m ((c : Thread nD τ).loc main_arg7)) transposes_S256x256_S256x256_1_0 k q)
  rw [← V_v2 m c]
  show V m c main_v2 (((cfg0.win 7).blk t).view.emb (ix2 k q)) = V m c main_v2 (ix2 k q)
  refine congrArg (V m c main_v2) (funext fun a => Fin.ext ?_)
  obtain ⟨-, -, -, -, -, -, -, e0, e1, -⟩ := pts t
  match a with
  | ⟨0, _⟩ => show win0_7.index t (0 : Fin 2) * 256 + 1 * k.val = k.val; omega
  | ⟨1, _⟩ => show win0_7.index t (1 : Fin 2) * 256 + 1 * q.val = q.val; omega

/-- The first event column is the first half of the event weights. -/
theorem tile_ev1 (c : Dev nD) (t : Fin cfg0.N) (k : Fin 128) :
    iblk m c 9 t (ix2 k (0 : Fin 1)) = (m ((c : Thread nD τ).loc main_arg9)) (ix2 (0 : Fin 1) (⟨k.val, by omega⟩ : Fin 256)) := by
  refine Eq.trans ?_ ((transpose_ix2_apply _ transposes_S1x128_S128x1_1_0 k (0 : Fin 1)).trans
    (slice2_axis1_apply 0 (m ((c : Thread nD τ).loc main_arg9)) slices_S1x256_S1x128_0_0 (0 : Fin 1) k ⟨k.val, by omega⟩ (Nat.zero_add _).symm))
  rw [← V_v4 m c]
  show V m c main_v4 (((cfg0.win 9).blk t).view.emb (ix2 k (0 : Fin 1))) = V m c main_v4 (ix2 k (0 : Fin 1))
  refine congrArg (V m c main_v4) (funext fun a => Fin.ext ?_)
  obtain ⟨-, -, -, -, -, -, -, -, -, -, e0, e1, -⟩ := pts t
  match a with
  | ⟨0, _⟩ => show win0_9.index t (0 : Fin 2) * 128 + 1 * k.val = k.val; omega
  | ⟨1, _⟩ => show win0_9.index t (1 : Fin 2) * 1 + 1 * 0 = 0; omega

/-- The second event column is the second half of the event weights. -/
theorem tile_ev2 (c : Dev nD) (t : Fin cfg0.N) (k : Fin 128) :
    iblk m c 10 t (ix2 k (0 : Fin 1)) = (m ((c : Thread nD τ).loc main_arg9)) (ix2 (0 : Fin 1) (⟨128 + k.val, by omega⟩ : Fin 256)) := by
  refine Eq.trans ?_ ((transpose_ix2_apply _ transposes_S1x128_S128x1_1_0 k (0 : Fin 1)).trans
    (slice2_axis1_apply 128 (m ((c : Thread nD τ).loc main_arg9)) slices_S1x256_S1x128_0_128 (0 : Fin 1) k ⟨128 + k.val, by omega⟩ rfl))
  rw [← V_v6 m c]
  show V m c main_v6 (((cfg0.win 10).blk t).view.emb (ix2 k (0 : Fin 1))) = V m c main_v6 (ix2 k (0 : Fin 1))
  refine congrArg (V m c main_v6) (funext fun a => Fin.ext ?_)
  obtain ⟨-, -, -, -, -, -, -, -, -, -, -, -, e0, e1, -⟩ := pts t
  match a with
  | ⟨0, _⟩ => show win0_10.index t (0 : Fin 2) * 128 + 1 * k.val = k.val; omega
  | ⟨1, _⟩ => show win0_10.index t (1 : Fin 2) * 1 + 1 * 0 = 0; omega

/-- A resident bias vector's tile is the vector: `b_in`. -/
theorem tile_bin (c : Dev nD) (t : Fin cfg0.N) (q : Fin 256) : iblk m c 4 t (ix1 q) = (m ((c : Thread nD τ).loc main_arg4)) (ix1 q) := by
  rw [← V_main_arg4 m c]
  show V m c main_arg4 (((cfg0.win 4).blk t).view.emb (ix1 q)) = V m c main_arg4 (ix1 q)
  refine congrArg (V m c main_arg4) (funext fun a => Fin.ext ?_)
  obtain ⟨-, -, -, e0, -⟩ := pts t
  match a with
  | ⟨0, _⟩ => show win0_4.index t (0 : Fin 1) * 256 + 1 * q.val = q.val; omega

/-- `b_rec`. -/
theorem tile_brec (c : Dev nD) (t : Fin cfg0.N) (q : Fin 256) : iblk m c 6 t (ix1 q) = (m ((c : Thread nD τ).loc main_arg6)) (ix1 q) := by
  rw [← V_main_arg6 m c]
  show V m c main_arg6 (((cfg0.win 6).blk t).view.emb (ix1 q)) = V m c main_arg6 (ix1 q)
  refine congrArg (V m c main_arg6) (funext fun a => Fin.ext ?_)
  obtain ⟨-, -, -, -, -, -, e0, -⟩ := pts t
  match a with
  | ⟨0, _⟩ => show win0_6.index t (0 : Fin 1) * 256 + 1 * q.val = q.val; omega

/-- `b_att`. -/
theorem tile_batt (c : Dev nD) (t : Fin cfg0.N) (q : Fin 256) : iblk m c 8 t (ix1 q) = (m ((c : Thread nD τ).loc main_arg8)) (ix1 q) := by
  rw [← V_main_arg8 m c]
  show V m c main_arg8 (((cfg0.win 8).blk t).view.emb (ix1 q)) = V m c main_arg8 (ix1 q)
  refine congrArg (V m c main_arg8) (funext fun a => Fin.ext ?_)
  obtain ⟨-, -, -, -, -, -, -, -, -, e0, -⟩ := pts t
  match a with
  | ⟨0, _⟩ => show win0_8.index t (0 : Fin 1) * 256 + 1 * q.val = q.val; omega

/-- The event bias. -/
theorem tile_evb (c : Dev nD) (t : Fin cfg0.N) : iblk m c 11 t (ix1 (0 : Fin 1)) = (m ((c : Thread nD τ).loc main_arg10)) (ix1 (0 : Fin 1)) := by
  rw [← V_main_arg10 m c]
  show V m c main_arg10 (((cfg0.win 11).blk t).view.emb (ix1 (0 : Fin 1))) = V m c main_arg10 (ix1 (0 : Fin 1))
  refine congrArg (V m c main_arg10) (funext fun a => Fin.ext ?_)
  obtain ⟨-, -, -, -, -, -, -, -, -, -, -, -, -, -, e0, -⟩ := pts t
  match a with
  | ⟨0, _⟩ => show win0_11.index t (0 : Fin 1) * 1 + 1 * 0 = 0; omega

/-- The time constants. -/
theorem tile_tau (c : Dev nD) (t : Fin cfg0.N) (q : Fin 256) : iblk m c 12 t (ix1 q) = (m ((c : Thread nD τ).loc main_arg11)) (ix1 q) := by
  rw [← V_main_arg11 m c]
  show V m c main_arg11 (((cfg0.win 12).blk t).view.emb (ix1 q)) = V m c main_arg11 (ix1 q)
  refine congrArg (V m c main_arg11) (funext fun a => Fin.ext ?_)
  obtain ⟨-, -, -, -, -, -, -, -, -, -, -, -, -, -, -, e0⟩ := pts t
  match a with
  | ⟨0, _⟩ => show win0_12.index t (0 : Fin 1) * 256 + 1 * q.val = q.val; omega

/-! ## What a point writes back, the cover, and the arrays after the run -/

/-- The specification's hidden array of the launch memory's arguments. -/
def hiddenG (c : Dev nD) : S65536x256.Idx → EReal :=
  hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The specification's event array of the launch memory's arguments. -/
def eventG (c : Dev nD) : S65536x1.Idx → EReal :=
  eventArr (m ((c : Thread nD τ).loc main_arg0)) (m ((c : Thread nD τ).loc main_arg1)) (m ((c : Thread nD τ).loc main_arg9)) (m ((c : Thread nD τ).loc main_arg10))

/-- WHAT POINT `t` WRITES BACK to the hidden result is block `t` of the specification's array. -/
theorem hidden_flushed (c : Dev nD) (t : Fin cfg0.N) :
    (dats m 0 c).flushed 13 t = ((cfg0.win 13).blk t).view.read (Elt Ideal) (hiddenG m c) := by
  rw [ValueP.flushed13]
  funext y
  obtain ⟨r, q, rfl⟩ : ∃ (r : Fin 2048) (q : Fin 256), y = ix2 r q := ⟨y 0, y 1, eq_ix2 y⟩
  obtain ⟨⟨-, -, -, -, -, -, -, -, e1, hle⟩, -⟩ := pts t
  have hp : win0_13.index t (0 : Fin 2) * 2048 + r.val < 65536 := by have := r.isLt; omega
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r q) = hiddenG m c (((cfg0.win 13).blk t).view.emb (ix2 r q))
  have hi : ((cfg0.win 13).blk t).view.emb (ix2 r q) = ix2 (⟨_, hp⟩ : Fin 65536) q := funext fun a => Fin.ext (by
    match a with
    | ⟨0, _⟩ => show win0_13.index t (0 : Fin 2) * 2048 + 1 * r.val = win0_13.index t (0 : Fin 2) * 2048 + r.val; omega
    | ⟨1, _⟩ => show win0_13.index t (1 : Fin 2) * 256 + 1 * q.val = q.val; omega)
  rw [hi]
  refine (Tile.hidden_tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r q).trans ?_
  unfold Tile.tileHidden hiddenG hiddenArr hiddenAt
  exact rowHidden_congr q (funext fun k => tile_x m c t r k _ rfl) (funext fun k => tile_prev m c t r k _ rfl)
    (funext fun k => tile_hidden m c t r k _ rfl)
    (funext fun q => funext fun k => tile_Win m c t k q) (funext fun q => tile_bin m c t q)
    (funext fun q => funext fun k => tile_Wrec m c t k q) (funext fun q => tile_brec m c t q)
    (funext fun q => funext fun k => tile_Watt m c t k q) (funext fun q => tile_batt m c t q)
    (funext fun k => tile_ev1 m c t k) (funext fun k => tile_ev2 m c t k) (tile_evb m c t)
    (funext fun q => tile_tau m c t q)

/-- WHAT POINT `t` WRITES BACK to the event result is block `t` of the specification's array. -/
theorem event_flushed (c : Dev nD) (t : Fin cfg0.N) :
    (dats m 0 c).flushed 14 t = ((cfg0.win 14).blk t).view.read (Elt Ideal) (eventG m c) := by
  rw [ValueP.flushed14]
  funext y
  obtain ⟨r, u, rfl⟩ : ∃ (r : Fin 2048) (u : Fin 1), y = ix2 r u := ⟨y 0, y 1, eq_ix2 y⟩
  obtain rfl : u = 0 := Subsingleton.elim u 0
  obtain ⟨⟨-, -, -, -, -, -, e0, e1, -, hle⟩, -⟩ := pts t
  have hp : win0_13.index t (0 : Fin 2) * 2048 + r.val < 65536 := by have := r.isLt; omega
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r (0 : Fin 1)) = eventG m c (((cfg0.win 14).blk t).view.emb (ix2 r (0 : Fin 1)))
  have hi : ((cfg0.win 14).blk t).view.emb (ix2 r (0 : Fin 1)) = ix2 (⟨_, hp⟩ : Fin 65536) (0 : Fin 1) :=
    funext fun a => Fin.ext (by
      match a with
      | ⟨0, _⟩ => show win0_14.index t (0 : Fin 2) * 2048 + 1 * r.val = win0_13.index t (0 : Fin 2) * 2048 + r.val; omega
      | ⟨1, _⟩ => show win0_14.index t (1 : Fin 2) * 1 + 1 * 0 = 0; omega)
  rw [hi]
  refine (Tile.event_tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r).trans ?_
  exact rowEvent_congr (funext fun k => tile_x m c t r k _ rfl) (funext fun k => tile_prev m c t r k _ rfl)
    (funext fun k => tile_ev1 m c t k) (funext fun k => tile_ev2 m c t k) (tile_evb m c t)

/-- An index of the hidden result is in point `t`'s block iff each coordinate is in the block's range. -/
theorem mem_hidden_blk (t : Fin cfg0.N) (i : S65536x256.Idx) :
    i ∈ ((cfg0.win 13).blk t).view.set ↔ ∀ a : Fin 2, win0_13.index t a * S2048x256.size a ≤ (i a).val
      ∧ (i a).val < win0_13.index t a * S2048x256.size a + S2048x256.size a := by
  show i ∈ ((View.whole main_v7_0).slice (win0_13.rect t)).set ↔ _
  rw [View.set_slice_whole, Rect.mem_set_unit]
  exact Iff.rfl

/-- The same for the event result. -/
theorem mem_event_blk (t : Fin cfg0.N) (i : S65536x1.Idx) :
    i ∈ ((cfg0.win 14).blk t).view.set ↔ ∀ a : Fin 2, win0_14.index t a * S2048x1.size a ≤ (i a).val
      ∧ (i a).val < win0_14.index t a * S2048x1.size a + S2048x1.size a := by
  show i ∈ ((View.whole main_v7_1).slice (win0_14.rect t)).set ↔ _
  rw [View.set_slice_whole, Rect.mem_set_unit]
  exact Iff.rfl

/-- Batch row `p` lies in the block of the point that takes row block `p / 2048`: the blocks cover the hidden result. -/
theorem hidden_cover (i : S65536x256.Idx) :
    ∃ t : Fin cfg0.N, (cfg0.win 13).flush t = true ∧ i ∈ ((cfg0.win 13).blk t).view.set := by
  have hi0 : (i 0).val < 65536 := (i 0).isLt
  have hi1 : (i 1).val < 256 := (i 1).isLt
  obtain ⟨t, ht, -⟩ := pts_onto ⟨(i 0).val / 2048, by omega⟩
  have ht' : win0_13.index t (0 : Fin 2) = (i 0).val / 2048 := ht
  obtain ⟨⟨-, -, -, -, -, -, -, -, e1, -⟩, -⟩ := pts t
  refine ⟨t, flush0_13 t, ?_⟩
  rw [mem_hidden_blk]
  intro a
  match a with
  | ⟨0, _⟩ =>
    show win0_13.index t (0 : Fin 2) * 2048 ≤ (i 0).val ∧ (i 0).val < win0_13.index t (0 : Fin 2) * 2048 + 2048
    omega
  | ⟨1, _⟩ =>
    show win0_13.index t (1 : Fin 2) * 256 ≤ (i 1).val ∧ (i 1).val < win0_13.index t (1 : Fin 2) * 256 + 256
    omega

/-- The blocks cover the event result. -/
theorem event_cover (i : S65536x1.Idx) :
    ∃ t : Fin cfg0.N, (cfg0.win 14).flush t = true ∧ i ∈ ((cfg0.win 14).blk t).view.set := by
  have hi0 : (i 0).val < 65536 := (i 0).isLt
  have hi1 : (i 1).val < 1 := (i 1).isLt
  obtain ⟨t, -, ht⟩ := pts_onto ⟨(i 0).val / 2048, by omega⟩
  have ht' : win0_14.index t (0 : Fin 2) = (i 0).val / 2048 := ht
  obtain ⟨⟨-, -, -, -, -, -, -, e1, -⟩, -⟩ := pts t
  refine ⟨t, flush0_14 t, ?_⟩
  rw [mem_event_blk]
  intro a
  match a with
  | ⟨0, _⟩ =>
    show win0_14.index t (0 : Fin 2) * 2048 ≤ (i 0).val ∧ (i 0).val < win0_14.index t (0 : Fin 2) * 2048 + 2048
    omega
  | ⟨1, _⟩ =>
    show win0_14.index t (1 : Fin 2) * 1 ≤ (i 1).val ∧ (i 1).val < win0_14.index t (1 : Fin 2) * 1 + 1
    omega

/-- The hidden result after the run is the specification's array. -/
theorem hidden_final (c : Dev nD) : (dats m 0 c).arrAt 13 cfg0.N = hiddenG m c :=
  (dats m 0 c).arrAt_eq_of_cover 13 (hiddenG m c) (fun t _ => hidden_flushed m c t) hidden_cover

/-- The event result after the run is the specification's array. -/
theorem event_final (c : Dev nD) : (dats m 0 c).arrAt 14 cfg0.N = eventG m c :=
  (dats m 0 c).arrAt_eq_of_cover 14 (eventG m c) (fun t _ => event_flushed m c t) event_cover

/-- The run of the idealized kernel: both results at the specification's arrays, the arguments unchanged. -/
theorem run : θ_run defs (onTc (τ := τ) (main (F := Ideal))) ⟨m, fun _ => 0, ρ⟩ fun r => ∀ c : Dev nD,
      r.2.mem ((c : Thread nD τ).loc main_v7_0) = hiddenG m c
      ∧ r.2.mem ((c : Thread nD τ).loc main_v7_1) = eventG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (hidden_final m c), (h c).2.1.trans (event_final m c), (h c).2.2⟩)
    (ValueP.run_blocks m ρ)

end Cert.KernelIdeal.Arr

end
-- ==== Proof.RefValue.lean ====
import proofs.«130308_j30528627540772_1_alg».proof.Proof.Gen.ReferenceIdeal.Read
import proofs.«130308_j30528627540772_1_alg».proof.Proof.Spec
import Idealize.ShloMosaic.Lib.ValueLayout

/-!
The reference program, one stage at a time, is the specification `Cert.LiquidCell`.

Each of its products is a `dot_general` against a transposed weight matrix, read as the sum over the contracted axis
of `x (p, k) · W (q, k)`; a bias is a vector viewed as one row and repeated over the batch; jax's sigmoid arrives
expanded as `1 / (1 + exp (-z))`, which is the logistic function by its definition once the literal one is read as
the real one; the event weight takes ONE dot product of the concatenated row `[x | x']` with the whole weight row,
which splits at column 128 into the two partial dot products of the specification.
-/

noncomputable section

namespace Cert.ReferenceIdeal.RefValue

open Cert.ReferenceIdeal Cert.ReferenceIdeal.Gen Cert.ReferenceIdeal.Read Idealize.ShloMosaic Idealize.ShloMosaic.ValueIdx
  Cert.LiquidCell

/-- Two rank-2 indices with equal coordinates are equal. -/
theorem ix2_ext {a b : ℕ} (i j : (⟨2, ![a, b]⟩ : Shape).Idx) (h0 : i 0 = j 0) (h1 : i 1 = j 1) : i = j :=
  funext fun d => match d with | ⟨0, _⟩ => h0 | ⟨1, _⟩ => h1

/-- Two rank-1 indices with equal coordinates are equal. -/
theorem ix1_ext {a : ℕ} (i j : (⟨1, ![a]⟩ : Shape).Idx) (h0 : i 0 = j 0) : i = j :=
  funext fun d => match d with | ⟨0, _⟩ => h0

/-- The concatenated row `[x | x']` at a column below 128 is `x`'s entry. -/
theorem concat_left (x0 x1 : (⟨S65536x128, .f32⟩ : BufTy).Contents (Elt Ideal)) (p : Fin 65536) (k : Fin 128) :
    val_main_v0 (F := Ideal) x0 x1 (ix2 p (⟨k.val, by omega⟩ : Fin 256)) = x0 (ix2 p k) :=
  concatenate_pair_apply_left (t := S65536x256) (1 : Fin 2) x0 x1 concatenates_S65536x128_S65536x128_S65536x256_d1
    (ix2 p (⟨k.val, by omega⟩ : Fin 256)) rfl (ix2 p k) fun b => match b with | ⟨0, _⟩ => rfl | ⟨1, _⟩ => rfl

/-- The concatenated row at column `128 + k` is `x'`'s entry `k`. -/
theorem concat_right (x0 x1 : (⟨S65536x128, .f32⟩ : BufTy).Contents (Elt Ideal)) (p : Fin 65536) (k : Fin 128) :
    val_main_v0 (F := Ideal) x0 x1 (ix2 p (⟨128 + k.val, by omega⟩ : Fin 256)) = x1 (ix2 p k) :=
  concatenate_pair_apply_right (t := S65536x256) (1 : Fin 2) x0 x1 concatenates_S65536x128_S65536x128_S65536x256_d1
    (ix2 p (⟨128 + k.val, by omega⟩ : Fin 256)) rfl rfl (ix2 p k)
    (fun b => match b with | ⟨0, _⟩ => fun _ => rfl | ⟨1, _⟩ => fun h => absurd rfl h)
    (by show k.val + 128 = 128 + k.val; omega)

/-- The event weight of batch row `p`. -/
theorem event_apply (x0 x1 : (⟨S65536x128, .f32⟩ : BufTy).Contents (Elt Ideal)) (x9 : (⟨S1x256, .f32⟩ : BufTy).Contents (Elt Ideal)) (x10 : (⟨S1, .f32⟩ : BufTy).Contents (Elt Ideal)) (p : Fin 65536) (u : Fin 1) :
    val_main_v11 (F := Ideal) x0 x1 x9 x10 (ix2 p u) = eventAt x0 x1 x9 x10 p := by
  obtain rfl : u = 0 := Subsingleton.elim u 0
  rw [val_main_v11_apply, val_main_v10_apply, val_main_cst_0_apply, val_main_v9_apply, val_main_v8_apply,
    val_main_cst_apply, val_main_v7_apply, val_main_v6_apply, val_main_v5_apply, val_main_v2_apply, val_main_v4_apply,
    val_main_v3_apply]
  refine (logistic_expanded _).trans ?_
  unfold eventAt
  have hsum : ∑ k : Fin 256, val_main_v0 (F := Ideal) x0 x1 (lidx_main_v2 (ix2 p (0 : Fin 1)) k)
        * val_main_v1 (F := Ideal) x9 (ridx_main_v2 (ix2 p (0 : Fin 1)) k)
      = ∑ k : Fin 256, val_main_v0 (F := Ideal) x0 x1 (ix2 p k) * x9 (ix2 (0 : Fin 1) k) :=
    Finset.sum_congr rfl fun k _ => by
      rw [val_main_v1_apply]
      exact congrArg₂ (· * ·) (congrArg (val_main_v0 (F := Ideal) x0 x1) (ix2_ext _ _ rfl rfl))
        (congrArg x9 (ix2_ext _ _ rfl rfl))
  have hb : x10 (idx_main_v3 (idx_main_v4 (ix2 p (0 : Fin 1)))) = x10 (ix1 (0 : Fin 1)) :=
    congrArg x10 (ix1_ext _ _ rfl)
  rw [hsum, hb]
  exact rowEvent_of_concat (fun k => x0 (ix2 p k)) (fun k => x1 (ix2 p k))
    (fun k => val_main_v0 (F := Ideal) x0 x1 (ix2 p k)) (fun k => x9 (ix2 (0 : Fin 1) k)) (x10 (ix1 (0 : Fin 1)))
    (fun k => concat_left x0 x1 p k) (fun k => concat_right x0 x1 p k)

/-- The input part at `(p, q)`. -/
theorem inputPart_apply (x0 : (⟨S65536x128, .f32⟩ : BufTy).Contents (Elt Ideal)) (x3 : (⟨S256x128, .f32⟩ : BufTy).Contents (Elt Ideal)) (x4 : (⟨S256, .f32⟩ : BufTy).Contents (Elt Ideal)) (p : Fin 65536) (q : Fin 256) :
    val_main_v17 (F := Ideal) x0 x3 x4 (ix2 p q)
      = inputPart (fun k => x0 (ix2 p k)) (fun q k => x3 (ix2 q k)) (fun q => x4 (ix1 q)) q := by
  rw [val_main_v17_apply, val_main_v16_apply, val_main_v13_apply, val_main_v15_apply, val_main_v14_apply]
  unfold inputPart lin
  refine congrArg Ideal.tanh (congrArg₂ (· + ·) (Finset.sum_congr rfl fun k _ => ?_) (congrArg x4 (ix1_ext _ _ rfl)))
  rw [val_main_v12_apply]
  exact congrArg₂ (· * ·) (congrArg x0 (ix2_ext _ _ rfl rfl)) (congrArg x3 (ix2_ext _ _ rfl rfl))

/-- The attention gate at `(p, k)`. -/
theorem gate_apply (x2 : (⟨S65536x256, .f32⟩ : BufTy).Contents (Elt Ideal)) (x7 : (⟨S256x256, .f32⟩ : BufTy).Contents (Elt Ideal)) (x8 : (⟨S256, .f32⟩ : BufTy).Contents (Elt Ideal)) (p : Fin 65536) (k : Fin 256) :
    val_main_v28 (F := Ideal) x2 x7 x8 (ix2 p k)
      = gate (fun j => x2 (ix2 p j)) (fun k j => x7 (ix2 k j)) (fun k => x8 (ix1 k)) k := by
  rw [val_main_v28_apply, val_main_v27_apply, val_main_cst_2_apply, val_main_v26_apply, val_main_v25_apply,
    val_main_cst_1_apply, val_main_v24_apply, val_main_v23_apply, val_main_v22_apply, val_main_v19_apply,
    val_main_v21_apply, val_main_v20_apply]
  refine (logistic_expanded _).trans ?_
  unfold gate lin
  refine congrArg Ideal.logistic (congrArg₂ (· + ·) (Finset.sum_congr rfl fun j _ => ?_) (congrArg x8 (ix1_ext _ _ rfl)))
  rw [val_main_v18_apply]
  exact congrArg₂ (· * ·) (congrArg x2 (ix2_ext _ _ rfl rfl)) (congrArg x7 (ix2_ext _ _ rfl rfl))

/-- The recurrent part at `(p, q)`. -/
theorem recurrentPart_apply (x2 : (⟨S65536x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal))
    (x8 : (⟨S256, .f32⟩ : BufTy).Contents (Elt Ideal)) (p : Fin 65536) (q : Fin 256) :
    val_main_v35 (F := Ideal) x2 x5 x6 x7 x8 (ix2 p q)
      = recurrentPart (fun k => x2 (ix2 p k)) (fun k j => x7 (ix2 k j)) (fun k => x8 (ix1 k))
          (fun q k => x5 (ix2 q k)) (fun q => x6 (ix1 q)) q := by
  rw [val_main_v35_apply, val_main_v34_apply, val_main_v31_apply, val_main_v33_apply, val_main_v32_apply]
  unfold recurrentPart lin
  refine congrArg Ideal.tanh (congrArg₂ (· + ·) (Finset.sum_congr rfl fun k _ => ?_) (congrArg x6 (ix1_ext _ _ rfl)))
  have e : lidx_main_v31 (ix2 p q) k = ix2 p k := ix2_ext _ _ rfl rfl
  rw [e, val_main_v29_apply, gate_apply, val_main_v30_apply]
  exact congrArg (x2 (ix2 p k) * gate (fun j => x2 (ix2 p j)) (fun k j => x7 (ix2 k j)) (fun k => x8 (ix1 k)) k * ·)
    (congrArg x5 (ix2_ext _ _ rfl rfl))

/-- The clamped time constant, repeated over the batch, at `(p, q)`. -/
theorem tau_apply (x11 : (⟨S256, .f32⟩ : BufTy).Contents (Elt Ideal)) (p : Fin 65536) (q : Fin 256) :
    val_main_v41 (F := Ideal) x11 (ix2 p q) = tauClamped (x11 (ix1 q)) := by
  rw [val_main_v41_apply, val_main_v40_apply, val_main_v36_apply, val_main_call0_v4_apply, val_main_call0_v3_apply,
    val_main_cst_4_apply, val_main_call0_v2_apply, val_main_call0_v1_apply, val_main_call0_v0_apply, val_main_cst_3_apply]
  exact congrArg (fun z => min ten (max tenth z)) (congrArg x11 (ix1_ext _ _ rfl))

/-- The new hidden state at `(p, q)`. -/
theorem hidden_apply (x0 x1 : (⟨S65536x128, .f32⟩ : BufTy).Contents (Elt Ideal)) (x2 : (⟨S65536x256, .f32⟩ : BufTy).Contents (Elt Ideal)) (x3 : (⟨S256x128, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S1x256, .f32⟩ : BufTy).Contents (Elt Ideal)) (x10 : (⟨S1, .f32⟩ : BufTy).Contents (Elt Ideal)) (x11 : (⟨S256, .f32⟩ : BufTy).Contents (Elt Ideal))
    (p : Fin 65536) (q : Fin 256) :
    val_main_v49 (F := Ideal) x0 x1 x2 x3 x4 x5 x6 x7 x8 x9 x10 x11 (ix2 p q)
      = hiddenAt x0 x1 x2 x3 x4 x5 x6 x7 x8 x9 x10 x11 p q := by
  have e : idx_main_v47 (ix2 p q) = ix2 p (0 : Fin 1) := ix2_ext _ _ rfl rfl
  rw [val_main_v49_apply, val_main_v48_apply, val_main_v44_apply, val_main_v43_apply, val_main_cst_5_apply,
    val_main_v42_apply, val_main_v39_apply, val_main_v38_apply, val_main_v37_apply, val_main_v47_apply,
    val_main_v46_apply, val_main_v45_apply, val_main_cst_6_apply, e, inputPart_apply, recurrentPart_apply, tau_apply,
    event_apply]
  rfl

/-- The first result, as a whole array. -/
theorem hidden_eq (x0 x1 : (⟨S65536x128, .f32⟩ : BufTy).Contents (Elt Ideal)) (x2 : (⟨S65536x256, .f32⟩ : BufTy).Contents (Elt Ideal)) (x3 : (⟨S256x128, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S1x256, .f32⟩ : BufTy).Contents (Elt Ideal)) (x10 : (⟨S1, .f32⟩ : BufTy).Contents (Elt Ideal)) (x11 : (⟨S256, .f32⟩ : BufTy).Contents (Elt Ideal)) :
    val_main_v49 (F := Ideal) x0 x1 x2 x3 x4 x5 x6 x7 x8 x9 x10 x11
      = hiddenArr x0 x1 x2 x3 x4 x5 x6 x7 x8 x9 x10 x11 :=
  funext fun i => (congrArg (val_main_v49 (F := Ideal) x0 x1 x2 x3 x4 x5 x6 x7 x8 x9 x10 x11) (eq_ix2 i)).trans
    (hidden_apply x0 x1 x2 x3 x4 x5 x6 x7 x8 x9 x10 x11 (i 0) (i 1))

/-- The second result, as a whole array. -/
theorem event_eq (x0 x1 : (⟨S65536x128, .f32⟩ : BufTy).Contents (Elt Ideal)) (x9 : (⟨S1x256, .f32⟩ : BufTy).Contents (Elt Ideal)) (x10 : (⟨S1, .f32⟩ : BufTy).Contents (Elt Ideal)) :
    val_main_v11 (F := Ideal) x0 x1 x9 x10 = eventArr x0 x1 x9 x10 :=
  funext fun i => (congrArg (val_main_v11 (F := Ideal) x0 x1 x9 x10) (eq_ix2 i)).trans (event_apply x0 x1 x9 x10 (i 0) (i 1))

end Cert.ReferenceIdeal.RefValue

end
-- ==== Proof.lean ====
/-
  The liquid recurrent cell: a tiled kernel against its array-level reference, equal on the extended reals.

  Both programs compute, for every batch row, the event weight
  `e = logistic (x · w₁ + x' · w₂ + β)` and the new hidden row
  `h + (0.1 · ((-h + tanh (x W_inᵀ + b_in)) + tanh ((h ⊙ logistic (h W_attᵀ + b_att)) W_recᵀ + b_rec)) / clamp τ) · (1 + e)`.
  The kernel walks the batch in 32 tiles of 2048 rows with all weights resident, pre-transposed by the host, rounds the
  factors of each product to bf16 (the identity on the extended reals), and takes the event weight as two partial dot
  products; the reference transposes the weights inside each product, spells the logistic function out as
  `1 / (1 + exp (-z))`, and takes the event weight as one dot product of the concatenated row `[x | x']`. The
  specification `Cert.LiquidCell` (Proof/Spec.lean) is the common function; the kernel's result arrays are read off its
  run tile by tile (Proof/KernelBody.lean, KernelTile.lean, KernelValue.lean), the reference's off its run stage by stage
  (Proof/RefValue.lean). The one algebraic law is the splitting of a finite sum at column 128; no input needs to be
  finite for it, so the precondition is not opened. The idealization rewrote nothing, so `preserves` is trivial.
-/
import proofs.«130308_j30528627540772_1_alg».proof.Defs
import proofs.«130308_j30528627540772_1_alg».proof.Proof.Gen.Kernel
import proofs.«130308_j30528627540772_1_alg».proof.Proof.Gen.Kernel.Skeleton
import proofs.«130308_j30528627540772_1_alg».proof.Proof.Gen.Kernel.Launch
import proofs.«130308_j30528627540772_1_alg».proof.Proof.Gen.Kernel.Points
import proofs.«130308_j30528627540772_1_alg».proof.Proof.Gen.Kernel.Frame
import proofs.«130308_j30528627540772_1_alg».proof.Proof.Gen.KernelIdeal
import proofs.«130308_j30528627540772_1_alg».proof.Proof.Gen.KernelIdeal.Skeleton
import proofs.«130308_j30528627540772_1_alg».proof.Proof.Gen.KernelIdeal.Launch
import proofs.«130308_j30528627540772_1_alg».proof.Proof.Gen.KernelIdeal.Points
import proofs.«130308_j30528627540772_1_alg».proof.Proof.Gen.KernelIdeal.Frame
import proofs.«130308_j30528627540772_1_alg».proof.Proof.Gen.ReferenceIdeal
import proofs.«130308_j30528627540772_1_alg».proof.Proof.Gen.Pre_finite_inputs
import proofs.«130308_j30528627540772_1_alg».proof.Proof.Gen.ReferenceIdeal.Run
import proofs.«130308_j30528627540772_1_alg».proof.Proof.Gen.ReferenceIdeal.Read
import proofs.«130308_j30528627540772_1_alg».proof.Proof.KernelValue
import proofs.«130308_j30528627540772_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both runs end with the specification's two arrays of the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Arr.hiddenG m c, fun c => Cert.KernelIdeal.Arr.eventG m c,
    Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [a0, a1, a2, a3, a4, a5, a6, a7, a8, a9, a10, a11]
    exact (Cert.ReferenceIdeal.Read.val_main_v49_eq _ _ _ _ _ _ _ _ _ _ _ _).trans
      (Cert.ReferenceIdeal.RefValue.hidden_eq _ _ _ _ _ _ _ _ _ _ _ _)
  · obtain ⟨a0, a1, -, -, -, -, -, -, -, a9, a10, -⟩ := hagree c
    rw [a0, a1, a9, a10]
    exact (Cert.ReferenceIdeal.Read.val_main_v11_eq _ _ _ _).trans (Cert.ReferenceIdeal.RefValue.event_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
